-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S64x1024 : Shape := ⟨2, ![64, 1024]⟩
abbrev S64 : Shape := ⟨1, ![64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S65536x1024 .f32) (main_arg1 : FVec F S64x1024 .f32) (main_arg2 : FVec F S64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S65536x1024 : Shape := ⟨2, ![65536, 1024]⟩
abbrev S64x1024 : Shape := ⟨2, ![64, 1024]⟩
abbrev S64 : Shape := ⟨1, ![64]⟩
abbrev S32768x2048 : Shape := ⟨2, ![32768, 2048]⟩
abbrev S1024x64 : Shape := ⟨2, ![1024, 64]⟩
abbrev S_ : Shape := ⟨0, ![]⟩
abbrev S1024x128 : Shape := ⟨2, ![1024, 128]⟩
abbrev S2048x128 : Shape := ⟨2, ![2048, 128]⟩
abbrev S128 : Shape := ⟨1, ![128]⟩
abbrev S1x128 : Shape := ⟨2, ![1, 128]⟩
abbrev S32768x128 : Shape := ⟨2, ![32768, 128]⟩
abbrev S1024x2048 : Shape := ⟨2, ![1024, 2048]⟩
abbrev S65536x64 : Shape := ⟨2, ![65536, 64]⟩

abbrev nBuf : Space → Nat
  | .hbm => 14
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S64, .f32⟩
  | .hbm, ⟨3, _⟩ => ⟨S32768x2048, .f32⟩
  | .hbm, ⟨4, _⟩ => ⟨S1024x64, .f32⟩
  | .hbm, ⟨5, _⟩ => ⟨S_, .f32⟩
  | .hbm, ⟨6, _⟩ => ⟨S1024x64, .f32⟩
  | .hbm, ⟨7, _⟩ => ⟨S1024x128, .f32⟩
  | .hbm, ⟨8, _⟩ => ⟨S1024x128, .f32⟩
  | .hbm, ⟨9, _⟩ => ⟨S2048x128, .f32⟩
  | .hbm, ⟨10, _⟩ => ⟨S128, .f32⟩
  | .hbm, ⟨11, _⟩ => ⟨S1x128, .f32⟩
  | .hbm, ⟨12, _⟩ => ⟨S32768x128, .f32⟩
  | .hbm, ⟨13, _⟩ => ⟨S65536x64, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536x1024_S32768x2048 : S65536x1024.ShapeCasts S32768x2048
  transposes_S64x1024_S1024x64_1_0 : S64x1024.Transposes [1, 0] S1024x64
  bcast_S_S1024x64 : S_.BroadcastsInDim S1024x64 (![] : Fin 0 → Fin S1024x64.rank)
  concatenates_S1024x64_S1024x64_S1024x128_d1 : Shape.Concatenates [S1024x64, S1024x64] S1024x128 1
  concatenates_S1024x128_S1024x128_S2048x128_d0 : Shape.Concatenates [S1024x128, S1024x128] S2048x128 0
  concatenates_S64_S64_S128_d0 : Shape.Concatenates [S64, S64] S128 0
  shapeCasts_S128_S1x128 : S128.ShapeCasts S1x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S32768x128_S65536x64 : S32768x128.ShapeCasts S65536x64
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S32768x128.size a
  hwx0_3 : ∀ i : grid0.Coords, EltTy.bits .f32 = 32 ∨ (Rect.block (s := S32768x128) S1024x128.size (cc0_transform_3 i) (hinb0_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S64x1024 : Shape := ⟨2, ![64, 1024]⟩
abbrev S64 : Shape := ⟨1, ![64]⟩
abbrev S1024x64 : Shape := ⟨2, ![1024, 64]⟩
abbrev S65536x64 : Shape := ⟨2, ![65536, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S64x1024, .f32⟩
  | .hbm, ⟨2, _⟩ => ⟨S64, .f32⟩
  | .hbm, ⟨3, _⟩ => ⟨S1024x64, .f32⟩
  | .hbm, ⟨4, _⟩ => ⟨S65536x64, .f32⟩
  | .hbm, ⟨5, _⟩ => ⟨S1x64, .f32⟩
  | .hbm, ⟨6, _⟩ => ⟨S65536x64, .f32⟩
  | .hbm, ⟨7, _⟩ => ⟨S65536x64, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  dot_S65536x1024_S1024x64_S65536x64_1_0_0_1_n_n_wf : DotDims.WF S65536x1024 S1024x64 S65536x64 [1] [0] [0] [1] [] []

variable [Facts₀]

def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf

class Facts : Prop extends Facts₀ where

variable [Facts]
-- ==== Proof.Spec.lean ====
/-
  The two functions this certificate is about, on the extended reals, index by index.

  `linear x W b` is a stack of 64 linear layers applied to 65536 rows: entry (r, j) is the inner product of row r
  of x with row j of W, plus b j.

  `paired x2 Wb b2` is one [32768, 2048] x [2048, 128] product plus a bias row: entry (i, c) is the sum over
  k < 2048 of x2 (i, k) * Wb (k, c), plus b2 (0, c).  When x2 lays two consecutive rows of x side by side, Wb
  carries the transpose of W twice on its diagonal blocks and zero elsewhere, and b2 is b twice, the second is
  the first with every two result rows laid side by side (SpecLaw.lean).
-/
import Idealize.ShloMosaic.PureOps.Ideal
import Idealize.ShloMosaic.Lib.ValueIdx

noncomputable section

namespace Cert.Spec

open Idealize.ShloMosaic Idealize.ShloMosaic.ValueIdx

/-- Entry (r, j): the inner product of row r of x with row j of W, plus b j. -/
def linear (x : (⟨2, ![65536, 1024]⟩ : Shape).Idx → EReal) (W : (⟨2, ![64, 1024]⟩ : Shape).Idx → EReal)
    (b : (⟨1, ![64]⟩ : Shape).Idx → EReal) : (⟨2, ![65536, 64]⟩ : Shape).Idx → EReal :=
  fun i => (∑ k : Fin 1024, x (ix2 (⟨(i 0).val, (i 0).isLt⟩ : Fin 65536) k) * W (ix2 (⟨(i 1).val, (i 1).isLt⟩ : Fin 64) k))
    + b (ix1 (⟨(i 1).val, (i 1).isLt⟩ : Fin 64))

theorem linear_apply (x : (⟨2, ![65536, 1024]⟩ : Shape).Idx → EReal) (W : (⟨2, ![64, 1024]⟩ : Shape).Idx → EReal)
    (b : (⟨1, ![64]⟩ : Shape).Idx → EReal) (r : Fin 65536) (j : Fin 64) :
    linear x W b (ix2 r j) = (∑ k : Fin 1024, x (ix2 r k) * W (ix2 j k)) + b (ix1 j) := rfl

/-- Entry (i, c): the sum over k < 2048 of x2 (i, k) * Wb (k, c), plus b2 (0, c). -/
def paired (x2 : (⟨2, ![32768, 2048]⟩ : Shape).Idx → EReal) (Wb : (⟨2, ![2048, 128]⟩ : Shape).Idx → EReal)
    (b2 : (⟨2, ![1, 128]⟩ : Shape).Idx → EReal) : (⟨2, ![32768, 128]⟩ : Shape).Idx → EReal :=
  fun i => (∑ k : Fin 2048, x2 (ix2 (⟨(i 0).val, (i 0).isLt⟩ : Fin 32768) k) * Wb (ix2 k (⟨(i 1).val, (i 1).isLt⟩ : Fin 128)))
    + b2 (ix2 (0 : Fin 1) (⟨(i 1).val, (i 1).isLt⟩ : Fin 128))

theorem paired_apply (x2 : (⟨2, ![32768, 2048]⟩ : Shape).Idx → EReal) (Wb : (⟨2, ![2048, 128]⟩ : Shape).Idx → EReal)
    (b2 : (⟨2, ![1, 128]⟩ : Shape).Idx → EReal) (i : Fin 32768) (c : Fin 128) :
    paired x2 Wb b2 (ix2 i c) = (∑ k : Fin 2048, x2 (ix2 i k) * Wb (ix2 k c)) + b2 (ix2 (0 : Fin 1) c) := rfl

end Cert.Spec

end
-- ==== Proof.RefLinear.lean ====
/-
  The reference program's result, read entry by entry, is the stack of linear layers of Spec.lean: entry (r, j) is
  the inner product of row r of the first argument with row j of the second, plus the third argument at j.

  The program transposes the second argument, contracts the first argument's second axis against the transpose's first
  axis, broadcasts the third argument along the rows and adds.  Each operation is read at an index by the generated
  module's lemmas; the transposition met by the contraction puts the second argument's row index back first, and the
  two broadcasts met by the sum read the third argument at the column index.
-/
import proofs.«109565_j29265907155013_2_alg».proof.Proof.Gen.ReferenceIdeal.Read
import proofs.«109565_j29265907155013_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem

/-- The reference's result is `linear` of its three arguments. -/
theorem ref_eq_linear (x0 : (⟨S65536x1024, .f32⟩ : BufTy).Contents (Elt Ideal))
    (x1 : (⟨S64x1024, .f32⟩ : BufTy).Contents (Elt Ideal)) (x2 : (⟨S64, .f32⟩ : BufTy).Contents (Elt Ideal)) :
    Cert.ReferenceIdeal.Read.val_main_v4 (F := Ideal) x0 x1 x2 = Cert.Spec.linear x0 x1 x2 := by
  funext i
  rw [val_main_v4_apply, val_main_v1_apply, val_main_v3_apply, val_main_v2_apply]
  -- the bias is read at the column index
  have eb : idx_main_v2 (idx_main_v3 i) = ix1 (⟨(i 1).val, (i 1).isLt⟩ : Fin 64) :=
    funext fun a => Fin.ext (by match a with | ⟨0, _⟩ => rfl)
  -- each product term: the first argument at (r, k), the second at (j, k)
  have es : (∑ k : Fin 1024, x0 (lidx_main_v1 i k) * (val_main_v0 (F := Ideal) x1) (ridx_main_v1 i k))
      = ∑ k : Fin 1024, x0 (ix2 (⟨(i 0).val, (i 0).isLt⟩ : Fin 65536) k) * x1 (ix2 (⟨(i 1).val, (i 1).isLt⟩ : Fin 64) k) := by
    refine Finset.sum_congr rfl fun k _ => ?_
    rw [val_main_v0_apply]
    have el : lidx_main_v1 i k = ix2 (⟨(i 0).val, (i 0).isLt⟩ : Fin 65536) k :=
      funext fun a => Fin.ext (by match a with | ⟨0, _⟩ => rfl | ⟨1, _⟩ => rfl)
    have er : idx_main_v0 (ridx_main_v1 i k) = ix2 (⟨(i 1).val, (i 1).isLt⟩ : Fin 64) k :=
      funext fun a => Fin.ext (by match a with | ⟨0, _⟩ => rfl | ⟨1, _⟩ => rfl)
    rw [el, er]
  rw [es, eb]
  rfl

end Cert.ReferenceIdeal.RefValue

end
-- ==== Proof.SpecLaw.lean ====
/-
  The law joining the two functions of Spec.lean, on the extended reals.

  Lay every two consecutive rows of x side by side (x2), put the transpose of W twice on the diagonal blocks of a
  [2048, 128] matrix that is zero elsewhere (Wb), and write b twice in a row (b2).  Then entry (i, c) of
  `paired x2 Wb b2` is entry (2 i + c / 64, c mod 64) of `linear x W b`: the sum over k < 2048 splits into the
  halves k < 1024 and k ≥ 1024; in the half numbered c / 64 the term at 1024 (c / 64) + k' is
  x (2 i + c / 64, k') * W (c mod 64, k'), and in the other half every term is a product with 0.  A product with 0 is
  0 for every extended real, infinite ones included, so that half sums to 0 and no finiteness is needed.
-/
import proofs.«109565_j29265907155013_2_alg».proof.Proof.Spec
import Mathlib.Algebra.BigOperators.Fin

noncomputable section

open scoped BigOperators

namespace Cert.Spec

open Idealize.ShloMosaic Idealize.ShloMosaic.ValueIdx

/-- A sum over k < 2048 is the sum over k < 1024 plus the sum over 1024 + k, k < 1024. -/
theorem sum_two_halves (f : Fin 2048 → EReal) :
    ∑ k : Fin 2048, f k
      = (∑ k : Fin 1024, f ⟨k.val, by omega⟩) + ∑ k : Fin 1024, f ⟨1024 + k.val, by omega⟩ :=
  Fin.sum_univ_add (a := 1024) (b := 1024) f

/-- Entry (i, c) of the paired product is entry (2 i + c / 64, c mod 64) of the linear layers; the two positions are
    tied by their row-major offsets, `r * 64 + j = i * 128 + c`. -/
theorem paired_eq_linear (x : (⟨2, ![65536, 1024]⟩ : Shape).Idx → EReal) (W : (⟨2, ![64, 1024]⟩ : Shape).Idx → EReal)
    (b : (⟨1, ![64]⟩ : Shape).Idx → EReal) (x2 : (⟨2, ![32768, 2048]⟩ : Shape).Idx → EReal)
    (Wb : (⟨2, ![2048, 128]⟩ : Shape).Idx → EReal) (b2 : (⟨2, ![1, 128]⟩ : Shape).Idx → EReal)
    (hx : ∀ (p : (⟨2, ![32768, 2048]⟩ : Shape).Idx) (q : (⟨2, ![65536, 1024]⟩ : Shape).Idx),
      (q 0).val * 1024 + (q 1).val = (p 0).val * 2048 + (p 1).val → x2 p = x q)
    (hWd : ∀ (p : (⟨2, ![2048, 128]⟩ : Shape).Idx) (q : (⟨2, ![64, 1024]⟩ : Shape).Idx),
      (p 0).val / 1024 = (p 1).val / 64 → (q 1).val = (p 0).val % 1024 → (q 0).val = (p 1).val % 64 → Wb p = W q)
    (hWo : ∀ p : (⟨2, ![2048, 128]⟩ : Shape).Idx, (p 0).val / 1024 ≠ (p 1).val / 64 → Wb p = 0)
    (hb : ∀ (p : (⟨2, ![1, 128]⟩ : Shape).Idx) (q : (⟨1, ![64]⟩ : Shape).Idx), (q 0).val = (p 1).val % 64 → b2 p = b q)
    (o2 : (⟨2, ![32768, 128]⟩ : Shape).Idx) (o : (⟨2, ![65536, 64]⟩ : Shape).Idx)
    (ho : (o 0).val * 64 + (o 1).val = (o2 0).val * 128 + (o2 1).val) :
    paired x2 Wb b2 o2 = linear x W b o := by
  have h0 : (o2 0).val < 32768 := (o2 0).isLt
  have h1 : (o2 1).val < 128 := (o2 1).isLt
  have h2 : (o 0).val < 65536 := (o 0).isLt
  have h3 : (o 1).val < 64 := (o 1).isLt
  -- the four hypotheses at the coordinates that occur, with plain natural-number side conditions
  have hX : ∀ (k : Nat) (hk : k < 2048) (k' : Fin 1024), (o 0).val * 1024 + k'.val = (o2 0).val * 2048 + k →
      x2 (ix2 (⟨(o2 0).val, (o2 0).isLt⟩ : Fin 32768) (⟨k, hk⟩ : Fin 2048))
        = x (ix2 (⟨(o 0).val, (o 0).isLt⟩ : Fin 65536) k') :=
    fun k hk k' h => hx _ _ h
  have hD : ∀ (k : Nat) (hk : k < 2048) (k' : Fin 1024), k / 1024 = (o2 1).val / 64 → k'.val = k % 1024 →
      Wb (ix2 (⟨k, hk⟩ : Fin 2048) (⟨(o2 1).val, (o2 1).isLt⟩ : Fin 128))
        = W (ix2 (⟨(o 1).val, (o 1).isLt⟩ : Fin 64) k') :=
    fun k hk k' h h' => hWd _ _ h h' (show (o 1).val = (o2 1).val % 64 by omega)
  have hO : ∀ (k : Nat) (hk : k < 2048), k / 1024 ≠ (o2 1).val / 64 →
      Wb (ix2 (⟨k, hk⟩ : Fin 2048) (⟨(o2 1).val, (o2 1).isLt⟩ : Fin 128)) = 0 :=
    fun k hk h => hWo _ h
  have hB : b2 (ix2 (0 : Fin 1) (⟨(o2 1).val, (o2 1).isLt⟩ : Fin 128)) = b (ix1 (⟨(o 1).val, (o 1).isLt⟩ : Fin 64)) :=
    hb _ _ (show (o 1).val = (o2 1).val % 64 by omega)
  unfold paired linear
  dsimp only
  rw [hB, sum_two_halves]
  congr 1
  rcases Nat.lt_or_ge (o2 1).val 64 with hc | hc
  · -- c < 64: the lower half carries the inner product, the upper half is zero
    refine (congrArg₂ (· + ·) (Finset.sum_congr rfl fun k _ => ?_) (Finset.sum_eq_zero fun k _ => ?_)).trans (add_zero _)
    · rw [hX k.val _ k (by omega), hD k.val _ k (by omega) (by omega)]
    · rw [hO (1024 + k.val) _ (by omega), mul_zero]
  · -- c ≥ 64: the lower half is zero, the upper half carries the inner product
    refine (congrArg₂ (· + ·) (Finset.sum_eq_zero fun k _ => ?_) (Finset.sum_congr rfl fun k _ => ?_)).trans (zero_add _)
    · rw [hO k.val _ (by omega), mul_zero]
    · rw [hX (1024 + k.val) _ k (by omega), hD (1024 + k.val) _ k (by omega) (by omega)]

end Cert.Spec

end
-- ==== Proof.HostPrefix.lean ====
/-
  What the three arrays the region stages hold when it is entered, read at an index, on the extended reals.

  Write x : [65536, 1024], W : [64, 1024], b : [64] for the three argument arrays. Before the region the host
  reshapes x to x2 : [32768, 2048] (two consecutive rows of x side by side), builds W_blk : [2048, 128] as the rows
  [T Z] above the rows [Z T], with T : [1024, 64] the transpose of W and Z : [1024, 64] zero, and lays b twice end
  to end as the one row b2 : [1, 128]. Index by index:

    x2 (i, k)     = x (q0, q1)  whenever  q0 * 1024 + q1 = i * 2048 + k           (x2_read)
    W_blk (k, c)  = W (c mod 64, k mod 1024)  when  k / 1024 = c / 64             (wblk_diag)
    W_blk (k, c)  = 0                          when  k / 1024 ≠ c / 64             (wblk_off)
    b2 (0, c)     = b (c mod 64)                                                    (b2_read)

  First each staged array is written as the host operations' term of the argument arrays; then each operation is
  read at an index over arbitrary arrays (a reshape by row-major position, a two-piece concatenation by the side
  of the cut the index falls on, a transpose by swapping coordinates, the broadcast zero); then the two are joined.
-/
import proofs.«109565_j29265907155013_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostPrefix

open Idealize.ShloMosaic Idealize.ShloMosaic.ValueIdx Idealize.SL.Sem Idealize.ShloMosaic.TcCoe
open Cert.KernelIdeal Cert.KernelIdeal.Gen

variable (m : (ℓ : Loc nD τ sig) → Buf (Elt Ideal) ℓ) (c : Dev nD)

/-! ## The staged arrays as terms of the argument arrays -/

/-- The first staged array is the reshape of the first argument to 32768 rows of 2048. -/
theorem v0_term : (Gen.V m c main_v0 : S32768x2048.Idx → EReal)
    = shapeCast S32768x2048 (m ((c : Thread nD τ).loc main_arg0) : S65536x1024.Idx → EReal) shapeCasts_S65536x1024_S32768x2048 := by
  show StableHlo.after Gen.hostOps0 (fun b => m (c, b)) (Proc.devRef .tc main_v0) = _
  after_results
  rfl

/-- The third staged array is the third argument laid twice end to end, as one row of 128. -/
theorem v7_term : (Gen.V m c main_v7 : S1x128.Idx → EReal)
    = shapeCast S1x128 (concatenate S128 0 [⟨S64, (m ((c : Thread nD τ).loc main_arg2) : S64.Idx → EReal)⟩, ⟨S64, (m ((c : Thread nD τ).loc main_arg2) : S64.Idx → EReal)⟩] concatenates_S64_S64_S128_d0) shapeCasts_S128_S1x128 := by
  show StableHlo.after Gen.hostOps0 (fun b => m (c, b)) (Proc.devRef .tc main_v7) = _
  after_results
  rfl

/-- The second staged array: with T the transpose of the second argument and Z the [1024, 64] array of zeros,
    the rows [T Z] above the rows [Z T]. -/
theorem v5_term : (Gen.V m c main_v5 : S2048x128.Idx → EReal)
    = concatenate S2048x128 0
        [⟨S1024x128, concatenate S1024x128 1
            [⟨S1024x64, transpose S1024x64 [1, 0] (m ((c : Thread nD τ).loc main_arg1) : S64x1024.Idx → EReal) transposes_S64x1024_S1024x64_1_0⟩,
             ⟨S1024x64, broadcastInDim S1024x64 ![] bcast_S_S1024x64 (constant (F := Ideal) S_ .f32 0x00000000#32)⟩]
            concatenates_S1024x64_S1024x64_S1024x128_d1⟩,
         ⟨S1024x128, concatenate S1024x128 1
            [⟨S1024x64, broadcastInDim S1024x64 ![] bcast_S_S1024x64 (constant (F := Ideal) S_ .f32 0x00000000#32)⟩,
             ⟨S1024x64, transpose S1024x64 [1, 0] (m ((c : Thread nD τ).loc main_arg1) : S64x1024.Idx → EReal) transposes_S64x1024_S1024x64_1_0⟩]
            concatenates_S1024x64_S1024x64_S1024x128_d1⟩]
        concatenates_S1024x128_S1024x128_S2048x128_d0 := by
  show StableHlo.after Gen.hostOps0 (fun b => m (c, b)) (Proc.devRef .tc main_v5) = _
  after_results

/-! ## The operations read at an index, over arbitrary arrays -/

/-- A [65536, 1024] array reshaped to [32768, 2048], read at p, is the array at the index of the same row-major
    position. -/
theorem reshape_pairs_apply (x : S65536x1024.Idx → EReal) (h : S65536x1024.ShapeCasts S32768x2048)
    (p : S32768x2048.Idx) (q : S65536x1024.Idx)
    (hq : (q 0).val * 1024 + (q 1).val = (p 0).val * 2048 + (p 1).val) :
    shapeCast S32768x2048 x h p = x q := by
  refine shapeCast_apply x h p q ?_
  rw [Shape.rowMajor_val_two, Shape.rowMajor_val_two]
  exact hq

/-- Two [1024, 64] arrays side by side: a column below 64 reads the first. -/
theorem cat1_left (A B : S1024x64.Idx → EReal) (h : Shape.Concatenates [S1024x64, S1024x64] S1024x128 1)
    (j : S1024x128.Idx) (i : S1024x64.Idx) (h0 : (i 0).val = (j 0).val) (h1 : (i 1).val = (j 1).val) :
    concatenate S1024x128 1 [⟨S1024x64, A⟩, ⟨S1024x64, B⟩] h j = A i :=
  concatenate_pair_apply_left (t := S1024x128) (s₁ := S1024x64) (s₂ := S1024x64) 1 A B h j rfl i (fun b => by
    match b with
    | ⟨0, _⟩ => exact h0
    | ⟨1, _⟩ => exact h1)

/-- Two [1024, 64] arrays side by side: a column from 64 on reads the second, 64 columns less. -/
theorem cat1_right (A B : S1024x64.Idx → EReal) (h : Shape.Concatenates [S1024x64, S1024x64] S1024x128 1)
    (j : S1024x128.Idx) (i : S1024x64.Idx) (h0 : (i 0).val = (j 0).val) (h1 : (i 1).val + 64 = (j 1).val) :
    concatenate S1024x128 1 [⟨S1024x64, A⟩, ⟨S1024x64, B⟩] h j = B i :=
  concatenate_pair_apply_right (t := S1024x128) (s₁ := S1024x64) (s₂ := S1024x64) 1 A B h j rfl rfl i
    (fun b hb => by
      match b with
      | ⟨0, _⟩ => exact h0
      | ⟨1, _⟩ => exact absurd rfl hb)
    h1

/-- Two [1024, 128] arrays one above the other: a row below 1024 reads the first. -/
theorem cat0_left (A B : S1024x128.Idx → EReal) (h : Shape.Concatenates [S1024x128, S1024x128] S2048x128 0)
    (j : S2048x128.Idx) (i : S1024x128.Idx) (h0 : (i 0).val = (j 0).val) (h1 : (i 1).val = (j 1).val) :
    concatenate S2048x128 0 [⟨S1024x128, A⟩, ⟨S1024x128, B⟩] h j = A i :=
  concatenate_pair_apply_left (t := S2048x128) (s₁ := S1024x128) (s₂ := S1024x128) 0 A B h j rfl i (fun b => by
    match b with
    | ⟨0, _⟩ => exact h0
    | ⟨1, _⟩ => exact h1)

/-- Two [1024, 128] arrays one above the other: a row from 1024 on reads the second, 1024 rows less. -/
theorem cat0_right (A B : S1024x128.Idx → EReal) (h : Shape.Concatenates [S1024x128, S1024x128] S2048x128 0)
    (j : S2048x128.Idx) (i : S1024x128.Idx) (h0 : (i 0).val + 1024 = (j 0).val) (h1 : (i 1).val = (j 1).val) :
    concatenate S2048x128 0 [⟨S1024x128, A⟩, ⟨S1024x128, B⟩] h j = B i :=
  concatenate_pair_apply_right (t := S2048x128) (s₁ := S1024x128) (s₂ := S1024x128) 0 A B h j rfl rfl i
    (fun b hb => by
      match b with
      | ⟨0, _⟩ => exact absurd rfl hb
      | ⟨1, _⟩ => exact h1)
    h0

/-- The transpose of a [64, 1024] array at (r, s) is the array at (s, r). -/
theorem transpose_W_apply (W : S64x1024.Idx → EReal) (h : S64x1024.Transposes [1, 0] S1024x64)
    (j : S1024x64.Idx) (q : S64x1024.Idx) (h1 : (q 1).val = (j 0).val) (h0 : (q 0).val = (j 1).val) :
    transpose S1024x64 [1, 0] W h j = W q :=
  transpose_apply [1, 0] W h j q (fun b => by
    match b with
    | ⟨0, _⟩ => exact h1
    | ⟨1, _⟩ => exact h0)

/-- The scalar zero broadcast to [1024, 64] is zero everywhere. -/
theorem zeros_apply (h : S_.BroadcastsInDim S1024x64 (![] : Fin 0 → Fin S1024x64.rank)) (j : S1024x64.Idx) :
    broadcastInDim S1024x64 ![] h (constant (F := Ideal) S_ .f32 0x00000000#32) j = (0 : EReal) := by
  refine (broadcastInDim_apply ![] h (constant (F := Ideal) S_ .f32 0x00000000#32) j ix0 (fun a => a.elim0)).trans ?_
  rw [constant_apply]
  exact Ideal.ofBits_zero_f32

/-- The block matrix [T Z ; Z T] on its diagonal blocks: entry (k, c) with k / 1024 = c / 64 is W (c mod 64, k mod 1024). -/
theorem blockdiag_apply_diag (W : S64x1024.Idx → EReal) (ht : S64x1024.Transposes [1, 0] S1024x64)
    (hb : S_.BroadcastsInDim S1024x64 (![] : Fin 0 → Fin S1024x64.rank))
    (h1c : Shape.Concatenates [S1024x64, S1024x64] S1024x128 1)
    (h0c : Shape.Concatenates [S1024x128, S1024x128] S2048x128 0)
    (p : S2048x128.Idx) (q : S64x1024.Idx) (hd : (p 0).val / 1024 = (p 1).val / 64)
    (h1 : (q 1).val = (p 0).val % 1024) (h0 : (q 0).val = (p 1).val % 64) :
    concatenate S2048x128 0
        [⟨S1024x128, concatenate S1024x128 1
            [⟨S1024x64, transpose S1024x64 [1, 0] W ht⟩,
             ⟨S1024x64, broadcastInDim S1024x64 ![] hb (constant (F := Ideal) S_ .f32 0x00000000#32)⟩] h1c⟩,
         ⟨S1024x128, concatenate S1024x128 1
            [⟨S1024x64, broadcastInDim S1024x64 ![] hb (constant (F := Ideal) S_ .f32 0x00000000#32)⟩,
             ⟨S1024x64, transpose S1024x64 [1, 0] W ht⟩] h1c⟩] h0c p = W q := by
  have hp0 : (p 0).val < 2048 := (p 0).isLt
  have hp1 : (p 1).val < 128 := (p 1).isLt
  by_cases hlt : (p 0).val < 1024
  · -- the upper rows, left half: T
    have hlt1 : (p 1).val < 64 := by omega
    refine (cat0_left _ _ h0c p (ix2 (⟨(p 0).val, hlt⟩ : Fin 1024) (⟨(p 1).val, hp1⟩ : Fin 128)) rfl rfl).trans ?_
    refine (cat1_left _ _ h1c (ix2 (⟨(p 0).val, hlt⟩ : Fin 1024) (⟨(p 1).val, hp1⟩ : Fin 128))
      (ix2 (⟨(p 0).val, hlt⟩ : Fin 1024) (⟨(p 1).val, hlt1⟩ : Fin 64)) rfl rfl).trans ?_
    refine transpose_W_apply W ht _ q ?_ ?_
    · show (q 1).val = (p 0).val
      omega
    · show (q 0).val = (p 1).val
      omega
  · -- the lower rows, right half: T again
    have hge1 : 64 ≤ (p 1).val := by omega
    have hr : (p 0).val - 1024 < 1024 := by omega
    have hc : (p 1).val - 64 < 64 := by omega
    refine (cat0_right _ _ h0c p (ix2 (⟨(p 0).val - 1024, hr⟩ : Fin 1024) (⟨(p 1).val, hp1⟩ : Fin 128)) ?_ rfl).trans ?_
    · show (p 0).val - 1024 + 1024 = (p 0).val
      omega
    refine (cat1_right _ _ h1c (ix2 (⟨(p 0).val - 1024, hr⟩ : Fin 1024) (⟨(p 1).val, hp1⟩ : Fin 128))
      (ix2 (⟨(p 0).val - 1024, hr⟩ : Fin 1024) (⟨(p 1).val - 64, hc⟩ : Fin 64)) rfl ?_).trans ?_
    · show (p 1).val - 64 + 64 = (p 1).val
      omega
    refine transpose_W_apply W ht _ q ?_ ?_
    · show (q 1).val = (p 0).val - 1024
      omega
    · show (q 0).val = (p 1).val - 64
      omega

/-- The block matrix [T Z ; Z T] off its diagonal blocks is zero. -/
theorem blockdiag_apply_off (W : S64x1024.Idx → EReal) (ht : S64x1024.Transposes [1, 0] S1024x64)
    (hb : S_.BroadcastsInDim S1024x64 (![] : Fin 0 → Fin S1024x64.rank))
    (h1c : Shape.Concatenates [S1024x64, S1024x64] S1024x128 1)
    (h0c : Shape.Concatenates [S1024x128, S1024x128] S2048x128 0)
    (p : S2048x128.Idx) (hd : (p 0).val / 1024 ≠ (p 1).val / 64) :
    concatenate S2048x128 0
        [⟨S1024x128, concatenate S1024x128 1
            [⟨S1024x64, transpose S1024x64 [1, 0] W ht⟩,
             ⟨S1024x64, broadcastInDim S1024x64 ![] hb (constant (F := Ideal) S_ .f32 0x00000000#32)⟩] h1c⟩,
         ⟨S1024x128, concatenate S1024x128 1
            [⟨S1024x64, broadcastInDim S1024x64 ![] hb (constant (F := Ideal) S_ .f32 0x00000000#32)⟩,
             ⟨S1024x64, transpose S1024x64 [1, 0] W ht⟩] h1c⟩] h0c p = (0 : EReal) := by
  have hp0 : (p 0).val < 2048 := (p 0).isLt
  have hp1 : (p 1).val < 128 := (p 1).isLt
  by_cases hlt : (p 0).val < 1024
  · -- the upper rows, right half: Z
    have hge1 : 64 ≤ (p 1).val := by omega
    have hc : (p 1).val - 64 < 64 := by omega
    refine (cat0_left _ _ h0c p (ix2 (⟨(p 0).val, hlt⟩ : Fin 1024) (⟨(p 1).val, hp1⟩ : Fin 128)) rfl rfl).trans ?_
    refine (cat1_right _ _ h1c (ix2 (⟨(p 0).val, hlt⟩ : Fin 1024) (⟨(p 1).val, hp1⟩ : Fin 128))
      (ix2 (⟨(p 0).val, hlt⟩ : Fin 1024) (⟨(p 1).val - 64, hc⟩ : Fin 64)) rfl ?_).trans ?_
    · show (p 1).val - 64 + 64 = (p 1).val
      omega
    exact zeros_apply hb _
  · -- the lower rows, left half: Z
    have hlt1 : (p 1).val < 64 := by omega
    have hr : (p 0).val - 1024 < 1024 := by omega
    refine (cat0_right _ _ h0c p (ix2 (⟨(p 0).val - 1024, hr⟩ : Fin 1024) (⟨(p 1).val, hp1⟩ : Fin 128)) ?_ rfl).trans ?_
    · show (p 0).val - 1024 + 1024 = (p 0).val
      omega
    refine (cat1_left _ _ h1c (ix2 (⟨(p 0).val - 1024, hr⟩ : Fin 1024) (⟨(p 1).val, hp1⟩ : Fin 128))
      (ix2 (⟨(p 0).val - 1024, hr⟩ : Fin 1024) (⟨(p 1).val, hlt1⟩ : Fin 64)) rfl rfl).trans ?_
    exact zeros_apply hb _

/-- A [64] array laid twice end to end and viewed as one row of 128: column c reads the array at c mod 64. -/
theorem twice_row_apply (b : S64.Idx → EReal) (hc : Shape.Concatenates [S64, S64] S128 0) (hs : S128.ShapeCasts S1x128)
    (p : S1x128.Idx) (q : S64.Idx) (h : (q 0).val = (p 1).val % 64) :
    shapeCast S1x128 (concatenate S128 0 [⟨S64, b⟩, ⟨S64, b⟩] hc) hs p = b q := by
  have hp0 : (p 0).val < 1 := (p 0).isLt
  have hp1 : (p 1).val < 128 := (p 1).isLt
  refine (shapeCast_apply _ hs p (ix1 (⟨(p 1).val, hp1⟩ : Fin 128)) ?_).trans ?_
  · rw [Shape.rowMajor_val_one, Shape.rowMajor_val_two]
    show (p 1).val = (p 0).val * 128 + (p 1).val
    omega
  · by_cases hlt : (p 1).val < 64
    · refine concatenate_pair_apply_left (t := S128) (s₁ := S64) (s₂ := S64) 0 b b hc _ rfl q (fun a => ?_)
      match a with
      | ⟨0, _⟩ =>
        show (q 0).val = (p 1).val
        omega
    · refine concatenate_pair_apply_right (t := S128) (s₁ := S64) (s₂ := S64) 0 b b hc _ rfl rfl q (fun a ha => ?_) ?_
      · match a with
        | ⟨0, _⟩ => exact absurd rfl ha
      · show (q 0).val + 64 = (p 1).val
        omega

/-! ## The staged arrays read at an index -/

/-- x2 (i, k) = x (q0, q1) whenever q0 * 1024 + q1 = i * 2048 + k: two consecutive rows of x side by side. -/
theorem x2_read (p : S32768x2048.Idx) (q : S65536x1024.Idx)
    (h : (q 0).val * 1024 + (q 1).val = (p 0).val * 2048 + (p 1).val) :
    (Gen.V m c main_v0 : S32768x2048.Idx → EReal) p = (m ((c : Thread nD τ).loc main_arg0) : S65536x1024.Idx → EReal) q :=
  (congrFun (v0_term m c) p).trans (reshape_pairs_apply _ _ p q h)

/-- W_blk (k, c) = W (c mod 64, k mod 1024) on the diagonal blocks, k / 1024 = c / 64. -/
theorem wblk_diag (p : S2048x128.Idx) (q : S64x1024.Idx) (hd : (p 0).val / 1024 = (p 1).val / 64)
    (h1 : (q 1).val = (p 0).val % 1024) (h0 : (q 0).val = (p 1).val % 64) :
    (Gen.V m c main_v5 : S2048x128.Idx → EReal) p = (m ((c : Thread nD τ).loc main_arg1) : S64x1024.Idx → EReal) q :=
  (congrFun (v5_term m c) p).trans (blockdiag_apply_diag _ _ _ _ _ p q hd h1 h0)

/-- W_blk (k, c) = 0 off the diagonal blocks, k / 1024 ≠ c / 64. -/
theorem wblk_off (p : S2048x128.Idx) (hd : (p 0).val / 1024 ≠ (p 1).val / 64) :
    (Gen.V m c main_v5 : S2048x128.Idx → EReal) p = (0 : EReal) :=
  (congrFun (v5_term m c) p).trans (blockdiag_apply_off _ _ _ _ _ p hd)

/-- b2 (0, c) = b (c mod 64). -/
theorem b2_read (p : S1x128.Idx) (q : S64.Idx) (h : (q 0).val = (p 1).val % 64) :
    (Gen.V m c main_v7 : S1x128.Idx → EReal) p = (m ((c : Thread nD τ).loc main_arg2) : S64.Idx → EReal) q :=
  (congrFun (v7_term m c) p).trans (twice_row_apply _ _ _ p q h)

end Cert.KernelIdeal.HostPrefix

end
-- ==== Proof.Payload.lean ====
/-
  The arithmetic of the kernel's body on the extended reals, read at an index.

  The body casts its two operands to their own shapes, narrows them to bf16, multiplies them into a zero
  accumulator, and adds the bias row stretched over the 1024 rows.  On the extended reals a cast to the same
  shape and a narrowing are identities, and a product into zero is the plain sum over the contraction index; so
  entry (p, q) of the stored block is the sum over k < 2048 of the first operand at (p, k) times the second at
  (k, q), plus the bias row at (0, q).
-/
import proofs.«109565_j29265907155013_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Idealize.SL.Sem

/-- The [1024, 2048] x [2048, 128] product's dimension record. -/
abbrev D : DotDims S1024x2048 S2048x128 S1024x128 := dot_S1024x2048_S2048x128_S1024x128_1_0_0_1_n_n

/-- The left operand's row is the output's row. -/
theorem lhs_row (i : S1024x128.Idx) (q : D.contr.Idx) : (D.lhsIdx i q 0).val = (i 0).val := by
  unfold DotDims.lhsIdx
  rw [dif_neg (show ¬(0 : Fin S1024x2048.rank) ∈ D.lhsBatch by decide),
    dif_pos (show (0 : Fin S1024x2048.rank) ∈ D.lhsNonContracting by decide)]
  rfl

/-- The left operand's column is the contraction index. -/
theorem lhs_col (i : S1024x128.Idx) (q : D.contr.Idx) : (D.lhsIdx i q 1).val = (q ⟨0, by decide⟩).val :=
  D.lhsIdx_val_of_single rfl i q

/-- The right operand's row is the contraction index. -/
theorem rhs_row (i : S1024x128.Idx) (q : D.contr.Idx) : (D.rhsIdx i q 0).val = (q ⟨0, by decide⟩).val :=
  D.rhsIdx_val_of_single rfl i q

/-- The right operand's column is the output's column. -/
theorem rhs_col (i : S1024x128.Idx) (q : D.contr.Idx) : (D.rhsIdx i q 1).val = (i 1).val := by
  unfold DotDims.rhsIdx
  rw [dif_neg (show ¬(1 : Fin S2048x128.rank) ∈ D.rhsBatch by decide),
    dif_pos (show (1 : Fin S2048x128.rank) ∈ D.rhsNonContracting by decide)]
  rfl

/-- The product into a zero accumulator at (p, q): the sum over k < 2048 of a (p, k) * b (k, q). -/
theorem product_apply {φ₁ φ₂ : FTy} (a : FVec Ideal S1024x2048 φ₁) (b : FVec Ideal S2048x128 φ₂) (p : Fin 1024) (q : Fin 128) :
    matmul (F := Ideal) D none a b (constant (F := Ideal) S1024x128 .f32 0x00000000#32) (ix2 p q)
      = ∑ k : Fin 2048, a (ix2 p k) * b (ix2 k q) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun c => Fin.ext (by
    match c with
    | ⟨0, _⟩ => exact lhs_row _ _
    | ⟨1, _⟩ => exact (lhs_col _ _).trans hk)
  have er : D.rhsIdx (ix2 p q) ((contrEquiv1 D 2048 rfl rfl).symm k) = ix2 k q := funext fun c => Fin.ext (by
    match c with
    | ⟨0, _⟩ => exact (rhs_row _ _).trans hk
    | ⟨1, _⟩ => exact rhs_col _ _)
  rw [el, er]

/-- The bias row stretched over the rows, at (p, q): the row at (0, q). -/
theorem bias_apply (r : FVec Ideal S1x128 .f32) (p : Fin 1024) (q : Fin 128) :
    broadcastTo S1024x128 r broadcasts_S1x128_S1024x128 (ix2 p q) = r (ix2 (0 : Fin 1) q) :=
  broadcastTo_apply r broadcasts_S1x128_S1024x128 (ix2 p q) (ix2 (0 : Fin 1) q) (fun c => match c with
    | ⟨0, _⟩ => by show 0 = if (1 : Nat) = 1 then 0 else _; rw [if_pos rfl]
    | ⟨1, _⟩ => by show q.val = if (128 : Nat) = 1 then 0 else q.val; rw [if_neg (by decide)])

/-- The body's stored block at (p, q). -/
theorem pay_apply (x0 : Vec Ideal S1024x2048 .f32) (x1 : Vec Ideal S2048x128 .f32) (x2 : Vec Ideal S1x128 .f32)
    (p : Fin 1024) (q : Fin 128) :
    Gen.k0_pay1 (F := Ideal) x0 x1 x2 (ix2 p q)
      = (∑ k : Fin 2048, x0 (ix2 p k) * x1 (ix2 k q)) + x2 (ix2 (0 : Fin 1) q) := by
  unfold Gen.k0_pay1
  simp only [shapeCast_self]
  refine (addf_apply _ _ (ix2 p q)).trans ?_
  rw [product_apply, bias_apply]
  rfl

end Cert.KernelIdeal.Payload

end
-- ==== Proof.Blocks.lean ====
/-
  From blocks to the array.

  The region runs its body at 32 points.  At point t the body reads rows t*1024 .. t*1024+1023 of the
  [32768, 2048] array, the whole [2048, 128] array and the whole [1, 128] row, and writes rows t*1024 ..
  t*1024+1023 of the [32768, 128] output.  Entry (p, q) of what it writes is the sum over k < 2048 of the first
  block at (p, k) times the second at (k, q), plus the row at (0, q): that is entry (t*1024 + p, q) of the paired
  product of the three arrays.  The 32 row ranges tile the output (row r is in the range of point r / 1024), so
  after the run the output array is the paired product everywhere.
-/
import proofs.«109565_j29265907155013_2_alg».proof.Proof.Gen.KernelIdeal.Frame
import proofs.«109565_j29265907155013_2_alg».proof.Proof.Payload
import proofs.«109565_j29265907155013_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- The body's accesses start at the origin of their buffers. -/
theorem origin : (![0, 0] : Fin 2 → Nat) = fun _ => 0 := funext fun a => by fin_cases a <;> rfl

/-- One point's block, entry by entry, over plain functions: when row p of the first block is row r of X, and
    the other two blocks agree with Wb and B where entry (p, q) reads them, the body's entry (p, q) is entry
    (r, q) of the paired product of X, Wb and B. -/
theorem block_entry (X : (⟨2, ![32768, 2048]⟩ : Shape).Idx → EReal) (Wb : (⟨2, ![2048, 128]⟩ : Shape).Idx → EReal)
    (B : (⟨2, ![1, 128]⟩ : Shape).Idx → EReal)
    (x0 : Vec Ideal S1024x2048 .f32) (x1 : Vec Ideal S2048x128 .f32) (x2 : Vec Ideal S1x128 .f32)
    (r : Fin 32768) (p : Fin 1024) (q : Fin 128)
    (h0 : ∀ k : Fin 2048, x0 (ix2 p k) = X (ix2 r k))
    (h1 : ∀ k : Fin 2048, x1 (ix2 k q) = Wb (ix2 k q))
    (h2 : x2 (ix2 (0 : Fin 1) q) = B (ix2 (0 : Fin 1) q)) :
    Gen.k0_pay1 (F := Ideal) x0 x1 x2 (ix2 p q) = Cert.Spec.paired X Wb B (ix2 r q) := by
  rw [Payload.pay_apply, Cert.Spec.paired_apply, h2]
  exact congrArg (· + B (ix2 (0 : Fin 1) q)) (Finset.sum_congr rfl fun k _ => by rw [h0 k, h1 k])

/-- The printed index maps, decided over the grid: the output's row-block index is the point's number, the first
    input's is the same, and every other block index is 0. -/
theorem index_facts : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- What point t writes back is block t of the paired product of the three arrays as the region finds them. -/
theorem flushed_eq (c : Dev nD) (t : Fin cfg0.N) :
    (dats m 0 c).flushed 3 t = ((cfg0.win 3).blk t).view.read (Elt Ideal)
      (Cert.Spec.paired (V m c main_v0) (V m c main_v5) (V m c main_v7)) := by
  show (cfg0.win 3).cut (grid0.coords t) ((dats m 0 c).after 3 t) = _
  rw [after0_3]
  unfold out0_3
  rw [View.canon_unit_zero origin]
  simp only [View.ld_unit_zero (S := S1024x2048) origin, View.ld_unit_zero (S := S2048x128) origin,
    View.ld_unit_zero (S := S1x128) origin]
  obtain ⟨e30, e31, e00, e01, e10, e11, e20, e21⟩ := index_facts t
  funext y
  obtain ⟨p, q, rfl⟩ : ∃ (p : Fin 1024) (q : Fin 128), y = ix2 p q := ⟨y 0, y 1, eq_ix2 y⟩
  have ht : t.val < 32 := lt_of_lt_of_eq t.isLt N_0
  have hp : p.val < 1024 := p.isLt
  show Gen.k0_pay1 (F := Ideal) (iblk m c 0 t) (iblk m c 1 t) (iblk m c 2 t) (ix2 p q)
    = Cert.Spec.paired (V m c main_v0) (V m c main_v5) (V m c main_v7) (((cfg0.win 3).blk t).view.emb (ix2 p q))
  -- entry (p, q) of the output's block t sits at row t*1024 + p, column q of the output array
  have hout : (((cfg0.win 3).blk t).view.emb (ix2 p q) : S32768x128.Idx)
      = ix2 (⟨t.val * 1024 + p.val, by omega⟩ : Fin 32768) q := by
    funext a; apply Fin.ext
    match a with
    | ⟨0, _⟩ => show win0_3.index t (0 : Fin 2) * 1024 + 1 * p.val = t.val * 1024 + p.val; omega
    | ⟨1, _⟩ => show win0_3.index t (1 : Fin 2) * 128 + 1 * q.val = q.val; omega
  refine (block_entry (V m c main_v0) (V m c main_v5) (V m c main_v7) (iblk m c 0 t) (iblk m c 1 t) (iblk m c 2 t)
      (⟨t.val * 1024 + p.val, by omega⟩ : Fin 32768) p q (fun k => ?_) (fun k => ?_) ?_).trans
    (congrArg (Cert.Spec.paired (V m c main_v0) (V m c main_v5) (V m c main_v7)) hout.symm)
  · -- row p of the first block is row t*1024 + p of the first array
    show V m c main_v0 (((cfg0.win 0).blk t).view.emb (ix2 p k)) = _
    refine congrArg (V m c main_v0 : S32768x2048.Idx → EReal) (funext fun a => Fin.ext ?_)
    match a with
    | ⟨0, _⟩ => show win0_0.index t (0 : Fin 2) * 1024 + 1 * p.val = t.val * 1024 + p.val; omega
    | ⟨1, _⟩ => show win0_0.index t (1 : Fin 2) * 2048 + 1 * k.val = k.val; omega
  · -- the second block is the whole second array
    show V m c main_v5 (((cfg0.win 1).blk t).view.emb (ix2 k q)) = _
    refine congrArg (V m c main_v5 : S2048x128.Idx → EReal) (funext fun a => Fin.ext ?_)
    match a with
    | ⟨0, _⟩ => show win0_1.index t (0 : Fin 2) * 2048 + 1 * k.val = k.val; omega
    | ⟨1, _⟩ => show win0_1.index t (1 : Fin 2) * 128 + 1 * q.val = q.val; omega
  · -- the third block is the whole row
    show V m c main_v7 (((cfg0.win 2).blk t).view.emb (ix2 (0 : Fin 1) q)) = _
    refine congrArg (V m c main_v7 : S1x128.Idx → EReal) (funext fun a => Fin.ext ?_)
    match a with
    | ⟨0, _⟩ => show win0_2.index t (0 : Fin 2) * 1 + 1 * ((0 : Fin 1) : Nat) = ((0 : Fin 1) : Nat); omega
    | ⟨1, _⟩ => show win0_2.index t (1 : Fin 2) * 128 + 1 * q.val = q.val; omega

/-- An index of the output array is in point t's block iff each coordinate is in the block's range on its axis. -/
theorem mem_block (t : Fin cfg0.N) (i : S32768x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v8).slice (win0_3.rect t)).set ↔ _
  rw [View.set_slice_whole, Rect.mem_set_unit]
  exact Iff.rfl

/-- The 32 blocks tile the output array: row r is in the block of point r / 1024, which writes it back. -/
theorem cover (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, lt_of_lt_of_eq (by omega : (i 0).val / 1024 < 32) N_0.symm⟩, rfl⟩
  obtain ⟨e30, e31, -⟩ := index_facts t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The output array after the run: the paired product of the three staged arrays as the region finds them. -/
theorem final3 (c : Dev nD) :
    (dats m 0 c).arrAt 3 cfg0.N = Cert.Spec.paired (V m c main_v0) (V m c main_v5) (V m c main_v7) :=
  (dats m 0 c).arrAt_eq_of_cover 3 _ (fun t _ => flushed_eq m c t) cover

end Cert.KernelIdeal.Blocks

end
-- ==== Proof.Tail.lean ====
/-
  The one host operation after the region: the result buffer is the region's [32768, 128] output array reshaped
  to [65536, 64], so each row of the output array holds two consecutive result rows side by side.  The frame run
  is restated here with the result buffer named: it ends at that reshape of the output array as the write-backs
  leave it, and the three argument arrays end as they were launched.
-/
import proofs.«109565_j29265907155013_2_alg».proof.Proof.Gen.KernelIdeal.Frame
import Idealize.ShloMosaic.Lib.Pipeline.Value
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- After the reshape that follows the region, the result buffer holds the region's output array, as its write-backs
    leave it, read in row-major order at the result's shape. -/
theorem tail_result (c : Dev nD) :
    Pipeline.afterTail₀ cfgs (dats m) 0 (V0 m) [hostOps1] c main_v9
      = shapeCast S65536x64 ((dats m 0 c).arrAt 3 cfg0.N) shapeCasts_S32768x128_S65536x64 := by
  unfold Pipeline.afterTail₀
  show StableHlo.after hostOps1 _ (Proc.devRef .tc main_v9) = _
  after_results
  -- the reshape's operand is the output window's array, which the region leaves at the write-backs' result
  have e : Pipeline.withArrays (cfgs 0).spec c (V0 m c) (fun w => (dats m 0 c).arrAt w (cfgs 0).N) (Proc.devRef .tc main_v8)
      = (dats m 0 c).arrAt 3 cfg0.N :=
    Pipeline.withArrays_arr spec0 launch0.win.arr_inj c _ _ 3
  rw [e]
  rfl

/-- Every weakly fair execution terminates with the result buffer at the reshaped output array and the argument
    arrays unchanged. -/
theorem run_result (ρ : Dev nD → PrngReg) :
    θ_run defs (onTc (τ := τ) (main (F := F))) ⟨m, fun _ => 0, ρ⟩ (fun r => ∀ c : Dev nD,
      r.2.mem ((c.tc : Thread nD τ).loc main_v9)
        = shapeCast S65536x64 ((dats m 0 c).arrAt 3 cfg0.N) shapeCasts_S32768x128_S65536x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.KernelValue.lean ====
/-
  What the kernel computes, as one function of its arguments at the extended reals.

  The region's output array is `paired` of the three arrays it stages (Blocks.lean); those arrays are the
  arguments re-laid — two consecutive rows of x side by side, the transpose of W twice on the diagonal blocks of a
  matrix that is zero elsewhere, b twice (HostPrefix.lean); and the result buffer is the output array reshaped so
  that each of its rows splits into two result rows (Tail.lean).  By the law of SpecLaw.lean the reshaped array is
  `linear` of the arguments: in each entry's sum over 2048 terms, the 1024 terms that meet a zero block vanish —
  a product with zero is zero for every extended real, so nothing is asked of the inputs — and the other 1024 are
  the inner product of a row of x with a row of W.
-/
import proofs.«109565_j29265907155013_2_alg».proof.Proof.Spec
import proofs.«109565_j29265907155013_2_alg».proof.Proof.SpecLaw
import proofs.«109565_j29265907155013_2_alg».proof.Proof.HostPrefix
import proofs.«109565_j29265907155013_2_alg».proof.Proof.Blocks
import proofs.«109565_j29265907155013_2_alg».proof.Proof.Tail
import Idealize.ShloMosaic.Lib.Pipeline.Value

noncomputable section

namespace Cert.Spec

open Idealize.ShloMosaic Idealize.ShloMosaic.ValueIdx

/-- A [32768, 128] array read in row-major order at shape [65536, 64] is the array `G` as soon as the two agree at
    every pair of indices with one row-major position: entry (r, j) of the reshape is entry
    ((64 r + j) / 128, (64 r + j) mod 128) of the operand. -/
theorem reshape_of_law (G2 : (⟨2, ![32768, 128]⟩ : Shape).Idx → EReal) (G : (⟨2, ![65536, 64]⟩ : Shape).Idx → EReal)
    (h : (⟨2, ![32768, 128]⟩ : Shape).ShapeCasts ⟨2, ![65536, 64]⟩)
    (law : ∀ (o2 : (⟨2, ![32768, 128]⟩ : Shape).Idx) (o : (⟨2, ![65536, 64]⟩ : Shape).Idx),
      (o 0).val * 64 + (o 1).val = (o2 0).val * 128 + (o2 1).val → G2 o2 = G o) :
    shapeCast (⟨2, ![65536, 64]⟩ : Shape) G2 h = G := by
  funext o
  have h0 : (o 0).val < 65536 := (o 0).isLt
  have h1 : (o 1).val < 64 := (o 1).isLt
  refine (shapeCast_apply G2 h o (ix2 (⟨((o 0).val * 64 + (o 1).val) / 128, by omega⟩ : Fin 32768)
    (⟨((o 0).val * 64 + (o 1).val) % 128, by omega⟩ : Fin 128)) ?_).trans (law _ o ?_)
  · rw [Shape.rowMajor_val_two, Shape.rowMajor_val_two]
    show ((o 0).val * 64 + (o 1).val) / 128 * 128 + ((o 0).val * 64 + (o 1).val) % 128 = (o 0).val * 64 + (o 1).val
    omega
  · show (o 0).val * 64 + (o 1).val = ((o 0).val * 64 + (o 1).val) / 128 * 128 + ((o 0).val * 64 + (o 1).val) % 128
    omega

end Cert.Spec

namespace Cert.KernelIdeal.KernelValue

open Idealize.ShloMosaic Idealize.ShloMosaic.TcCoe Idealize.SL.Sem
open Cert.KernelIdeal Cert.KernelIdeal.Gen

variable (m : (ℓ : Loc nD τ sig) → Buf (Elt Ideal) ℓ)

/-- The reshaped output array is `linear` of the argument arrays as launched. -/
theorem result_eq_linear (c : Dev nD) :
    shapeCast S65536x64 ((dats m 0 c).arrAt 3 cfg0.N) shapeCasts_S32768x128_S65536x64
      = Cert.Spec.linear (m ((c.tc : Thread nD τ).loc main_arg0)) (m ((c.tc : Thread nD τ).loc main_arg1))
          (m ((c.tc : Thread nD τ).loc main_arg2)) := by
  rw [Cert.KernelIdeal.Blocks.final3 m c]
  exact Cert.Spec.reshape_of_law _ _ _ fun o2 o ho =>
    Cert.Spec.paired_eq_linear _ _ _ _ _ _ (Cert.KernelIdeal.HostPrefix.x2_read m c) (Cert.KernelIdeal.HostPrefix.wblk_diag m c)
      (Cert.KernelIdeal.HostPrefix.wblk_off m c) (Cert.KernelIdeal.HostPrefix.b2_read m c) o2 o ho

/-- Every weakly fair execution of the idealized kernel terminates with its result at `linear` of the arguments and
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
        = Cert.Spec.linear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq_linear m c), (h c).2⟩)
    (Cert.KernelIdeal.Tail.run_result m ρ)

end Cert.KernelIdeal.KernelValue

end
-- ==== Proof.lean ====
/-
  A stack of 64 linear layers, y = x W^T + b with x : [65536, 1024], W : [64, 1024], b : [64], computed by a kernel
  that pairs rows: it multiplies the [32768, 2048] array holding two consecutive rows of x side by side by the
  [2048, 128] matrix carrying W^T twice on its diagonal blocks and zero elsewhere, adds b twice side by side, and
  splits each 128-wide row of the product back into two result rows.  Against it, the reference: one product of x
  with W^T plus b broadcast down the rows.

  On the extended reals both are the function `Cert.Spec.linear` (Proof/Spec.lean): entry (r, j) is the sum over
  k < 1024 of x (r, k) * W (j, k), plus b j.  On the kernel's side each entry is a sum over 2048 products of which
  1024 have the factor zero and vanish — for every extended real, finite or not — leaving that inner product
  (Proof/SpecLaw.lean); the precondition is never opened.

  The frames of the two kernel programs are the generated ones; the reference's frame is its generated run with the
  result dropped; the idealization rewrote no operation, so there is nothing to preserve.
  Modules: Spec (the two functions), SpecLaw (the law between them), RefLinear (the reference is `linear`),
  HostPrefix (the staged arrays read at an index), Payload (the body's arithmetic at an index), Blocks (the output
  array from its blocks), Tail (the reshape after the region), KernelValue (the kernel's result is `linear`).
-/
import proofs.«109565_j29265907155013_2_alg».proof.Defs
import proofs.«109565_j29265907155013_2_alg».proof.Proof.Gen.Kernel
import proofs.«109565_j29265907155013_2_alg».proof.Proof.Gen.Kernel.Skeleton
import proofs.«109565_j29265907155013_2_alg».proof.Proof.Gen.Kernel.Launch
import proofs.«109565_j29265907155013_2_alg».proof.Proof.Gen.Kernel.Points
import proofs.«109565_j29265907155013_2_alg».proof.Proof.Gen.Kernel.Frame
import proofs.«109565_j29265907155013_2_alg».proof.Proof.Gen.KernelIdeal
import proofs.«109565_j29265907155013_2_alg».proof.Proof.Gen.KernelIdeal.Skeleton
import proofs.«109565_j29265907155013_2_alg».proof.Proof.Gen.KernelIdeal.Launch
import proofs.«109565_j29265907155013_2_alg».proof.Proof.Gen.KernelIdeal.Points
import proofs.«109565_j29265907155013_2_alg».proof.Proof.Gen.KernelIdeal.Frame
import proofs.«109565_j29265907155013_2_alg».proof.Proof.Gen.ReferenceIdeal
import proofs.«109565_j29265907155013_2_alg».proof.Proof.Gen.Pre_finite_inputs
import proofs.«109565_j29265907155013_2_alg».proof.Proof.Gen.ReferenceIdeal.Read
import proofs.«109565_j29265907155013_2_alg».proof.Proof.RefLinear
import proofs.«109565_j29265907155013_2_alg».proof.Proof.KernelValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, W and b, both programs end with their result at `linear x W b`. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
